-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.sign_bit.Statement Cert.KernelIdeal.S8x1 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x136 : Shape := ⟨2, ![8192, 136]⟩
abbrev S4096 : Shape := ⟨1, ![4096]⟩
abbrev S50x136 : Shape := ⟨2, ![50, 136]⟩
abbrev S50 : Shape := ⟨1, ![50]⟩
abbrev S1x50 : Shape := ⟨2, ![1, 50]⟩
abbrev S1 : Shape := ⟨1, ![1]⟩
abbrev S_ : Shape := ⟨0, ![]⟩

class Facts : Prop where
  bcast_S_S8192x136 : S_.BroadcastsInDim S8192x136 (![] : Fin 0 → Fin S8192x136.rank)
  reducesTo_S8192x136_S_d0_1 : S8192x136.ReducesTo [0, 1] S_
  h_S_ : 0 < S_.numel
  bcast_S_S50x136 : S_.BroadcastsInDim S50x136 (![] : Fin 0 → Fin S50x136.rank)
  reducesTo_S50x136_S_d0_1 : S50x136.ReducesTo [0, 1] S_
  bcast_S_S50 : S_.BroadcastsInDim S50 (![] : Fin 0 → Fin S50.rank)
  reducesTo_S50_S_d0 : S50.ReducesTo [0] S_
  bcast_S_S1x50 : S_.BroadcastsInDim S1x50 (![] : Fin 0 → Fin S1x50.rank)
  reducesTo_S1x50_S_d0_1 : S1x50.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S1x50 1) : IVec S_ 1 :=
  let main_c_5 : IVec S_ 1 := constantI S_ 1 1#1
  let main_v17 : IVec S_ 1 := (fun x v => Host.reduce IntOp.andi x v reducesTo_S1x50_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8192x136 .f32) (main_arg1 : IVec S4096 32) (main_arg2 : IVec S4096 32) (main_arg3 : FVec F S50x136 .f32) (main_arg4 : FVec F S50 .f32) (main_arg5 : FVec F S1x50 .f32) (main_arg6 : FVec F S1 .f32) : IVec S_ 1 :=
  let main_v0 : FVec F S8192x136 .f32 := Host.absf main_arg0
  let main_cst : FVec F S_ .f32 := constant S_ .f32 0x7F800000#32
  let main_v1 : FVec F S8192x136 .f32 := broadcastInDim S8192x136 ![] bcast_S_S8192x136 main_cst
  let main_v2 : IVec S8192x136 1 := cmpf .olt main_v0 main_v1
  let main_c : IVec S_ 1 := constantI S_ 1 1#1
  let main_v3 : IVec S_ 1 := (fun x v => Host.reduce IntOp.andi x v reducesTo_S8192x136_S_d0_1 h_S_) main_v2 main_c
  let main_v4 : FVec F S50x136 .f32 := Host.absf main_arg3
  let main_cst_0 : FVec F S_ .f32 := constant S_ .f32 0x7F800000#32
  let main_v5 : FVec F S50x136 .f32 := broadcastInDim S50x136 ![] bcast_S_S50x136 main_cst_0
  let main_v6 : IVec S50x136 1 := cmpf .olt main_v4 main_v5
  let main_c_1 : IVec S_ 1 := constantI S_ 1 1#1
  let main_v7 : IVec S_ 1 := (fun x v => Host.reduce IntOp.andi x v reducesTo_S50x136_S_d0_1 h_S_) main_v6 main_c_1
  let main_v8 : IVec S_ 1 := andi main_v3 main_v7
  let main_v9 : FVec F S50 .f32 := Host.absf main_arg4
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S1x50 .f32 := Host.absf main_arg5
  let main_cst_4 : FVec F S_ .f32 := constant S_ .f32 0x7F800000#32
  let main_v15 : FVec F S1x50 .f32 := broadcastInDim S1x50 ![] bcast_S_S1x50 main_cst_4
  let main_v16 : IVec S1x50 1 := cmpf .olt main_v14 main_v15
  fn_part1 (F := F) main_arg6 main_v13 main_v16
-- ==== Kernel.lean ====
abbrev S8192x136 : Shape := ⟨2, ![8192, 136]⟩
abbrev S4096 : Shape := ⟨1, ![4096]⟩
abbrev S50x136 : Shape := ⟨2, ![50, 136]⟩
abbrev S50 : Shape := ⟨1, ![50]⟩
abbrev S1x50 : Shape := ⟨2, ![1, 50]⟩
abbrev S1 : Shape := ⟨1, ![1]⟩
abbrev S1x1 : Shape := ⟨2, ![1, 1]⟩
abbrev S8x136 : Shape := ⟨2, ![8, 136]⟩
abbrev S8x50 : Shape := ⟨2, ![8, 50]⟩
abbrev S8x1 : Shape := ⟨2, ![8, 1]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S8192x136, .f32⟩
  | .hbm, ⟨1, _⟩ => ⟨S4096, .i32⟩
  | .hbm, ⟨2, _⟩ => ⟨S4096, .i32⟩
  | .hbm, ⟨3, _⟩ => ⟨S50x136, .f32⟩
  | .hbm, ⟨4, _⟩ => ⟨S50, .f32⟩
  | .hbm, ⟨5, _⟩ => ⟨S1x50, .f32⟩
  | .hbm, ⟨6, _⟩ => ⟨S1, .f32⟩
  | .hbm, ⟨7, _⟩ => ⟨S1x50, .f32⟩
  | .hbm, ⟨8, _⟩ => ⟨S1x1, .f32⟩
  | .hbm, ⟨9, _⟩ => ⟨S1x1, .f32⟩
  | .hbm, ⟨10, _⟩ => ⟨S_, .f32⟩
  | .local _ .vmem, ⟨0, _⟩ => ⟨S8x136, .f32⟩
  | .local _ .vmem, ⟨1, _⟩ => ⟨S50x136, .f32⟩
  | .local _ .vmem, ⟨2, _⟩ => ⟨S1x50, .f32⟩
  | .local _ .vmem, ⟨3, _⟩ => ⟨S1x50, .f32⟩
  | .local _ .vmem, ⟨4, _⟩ => ⟨S1x1, .f32⟩
  | .local _ .vmem, ⟨5, _⟩ => ⟨S1x1, .f32⟩
  | _, _ => ⟨S8192x136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [BitOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x136 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S50x136 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S50_S1x50 : S50.ShapeCasts S1x50
  shapeCasts_S1_S1x1 : S1.ShapeCasts S1x1
  inb_S8x136_S8x136_0_0 : ∀ a, (![0, 0] : Fin 2 → Nat) a + S8x136.size a ≤ S8x136.size a
  h_S8x136 : 0 < S8x136.numel
  inb_S50x136_S50x136_0_0 : ∀ a, (![0, 0] : Fin 2 → Nat) a + S50x136.size a ≤ S50x136.size a
  h_S50x136 : 0 < S50x136.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x50_S8x50 : S1x50.Broadcasts S8x50
  broadcasts_S1x1_S8x1 : S1x1.Broadcasts S8x1
  slices_S8x1_o0_0_S1x1 : S8x1.Slices ![0, 0] S1x1
  iota_S8x1_d0_w32 : S8x1.Iotas .tc 32 [0]
  reduces_S8x1_S1 : S8x1.Reduces [0] S1
  shapeCasts_S1x1_S_ : S1x1.ShapeCasts S_
  dot_S8x136_S50x136_S8x50_1_1_0_0_n_n_wf : DotDims.WF S8x136 S50x136 S8x50 [1] [1] [0] [0] [] []
  dot_S8x50_S1x50_S8x1_1_1_0_0_n_n_wf : DotDims.WF S8x50 S1x50 S8x1 [1] [1] [0] [0] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S8x136.size a ≤ S8192x136.size a
  hwx0_0 : ∀ i : grid0.Coords, EltTy.bits .f32 = 32 ∨ (Rect.block (s := S8192x136) S8x136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x136.size a ≤ S50x136.size a
  hwx0_1 : ∀ i : grid0.Coords, EltTy.bits .f32 = 32 ∨ (Rect.block (s := S50x136) S50x136.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x50.size a ≤ S1x50.size a
  hwx0_3 : ∀ i : grid0.Coords, EltTy.bits .f32 = 32 ∨ (Rect.block (s := S1x50) S1x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S8x136_S50x136_S8x50_1_1_0_0_n_n : DotDims S8x136 S50x136 S8x50 where
  lhsContracting := [1]
  rhsContracting := [1]
  lhsNonContracting := [0]
  rhsNonContracting := [0]
  lhsBatch := []
  rhsBatch := []
  wf := dot_S8x136_S50x136_S8x50_1_1_0_0_n_n_wf
def dot_S8x50_S1x50_S8x1_1_1_0_0_n_n : DotDims S8x50 S1x50 S8x1 where
  lhsContracting := [1]
  rhsContracting := [1]
  lhsNonContracting := [0]
  rhsNonContracting := [0]
  lhsBatch := []
  rhsBatch := []
  wf := dot_S8x50_S1x50_S8x1_1_1_0_0_n_n_wf

abbrev win0_0 : Pipeline.Window sig grid0 :=
  Pipeline.Window.ofSpec (Memref.whole main_arg0) S8x136.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S50x136.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x136 : Shape := ⟨2, ![8192, 136]⟩
abbrev S4096 : Shape := ⟨1, ![4096]⟩
abbrev S50x136 : Shape := ⟨2, ![50, 136]⟩
abbrev S50 : Shape := ⟨1, ![50]⟩
abbrev S1x50 : Shape := ⟨2, ![1, 50]⟩
abbrev S1 : Shape := ⟨1, ![1]⟩
abbrev S136x50 : Shape := ⟨2, ![136, 50]⟩
abbrev S8192x50 : Shape := ⟨2, ![8192, 50]⟩
abbrev S50x1 : Shape := ⟨2, ![50, 1]⟩
abbrev S8192x1 : Shape := ⟨2, ![8192, 1]⟩
abbrev S1x1 : Shape := ⟨2, ![1, 1]⟩
abbrev S8192 : Shape := ⟨1, ![8192]⟩
abbrev S1x8192 : Shape := ⟨2, ![1, 8192]⟩
abbrev S_ : Shape := ⟨0, ![]⟩
abbrev S8192x8192 : Shape := ⟨2, ![8192, 8192]⟩
abbrev S5x1 : Shape := ⟨2, ![5, 1]⟩
abbrev S5 : Shape := ⟨1, ![5]⟩

abbrev nBuf : Space → Nat
  | .hbm => 67
  | .vmem => 0
  | .smem => 0
  | _ => 0

abbrev bufTy : (tb : Table) → Fin (tcTables nBuf tb) → BufTy
  | .hbm, ⟨0, _⟩ => ⟨S8192x136, .f32⟩
  | .hbm, ⟨1, _⟩ => ⟨S4096, .i32⟩
  | .hbm, ⟨2, _⟩ => ⟨S4096, .i32⟩
  | .hbm, ⟨3, _⟩ => ⟨S50x136, .f32⟩
  | .hbm, ⟨4, _⟩ => ⟨S50, .f32⟩
  | .hbm, ⟨5, _⟩ => ⟨S1x50, .f32⟩
  | .hbm, ⟨6, _⟩ => ⟨S1, .f32⟩
  | .hbm, ⟨7, _⟩ => ⟨S136x50, .f32⟩
  | .hbm, ⟨8, _⟩ => ⟨S8192x50, .f32⟩
  | .hbm, ⟨9, _⟩ => ⟨S1x50, .f32⟩
  | .hbm, ⟨10, _⟩ => ⟨S8192x50, .f32⟩
  | .hbm, ⟨11, _⟩ => ⟨S8192x50, .f32⟩
  | .hbm, ⟨12, _⟩ => ⟨S8192x50, .f32⟩
  | .hbm, ⟨13, _⟩ => ⟨S50x1, .f32⟩
  | .hbm, ⟨14, _⟩ => ⟨S8192x1, .f32⟩
  | .hbm, ⟨15, _⟩ => ⟨S1x1, .f32⟩
  | .hbm, ⟨16, _⟩ => ⟨S8192x1, .f32⟩
  | .hbm, ⟨17, _⟩ => ⟨S8192x1, .f32⟩
  | .hbm, ⟨18, _⟩ => ⟨S8192, .f32⟩
  | .hbm, ⟨19, _⟩ => ⟨S8192x1, .f32⟩
  | .hbm, ⟨20, _⟩ => ⟨S1x8192, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S1x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S1x8192, .f32⟩
  | .hbm, ⟨41, _⟩ => ⟨S1x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S5x1, .f32⟩
  | .hbm, ⟨62, _⟩ => ⟨S5, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S8192x136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩

abbrev nD : Nat := 1
abbrev τ : Topo := Topo.v7x

variable {F : FTy → Type} [FloatOps F]

class Facts₀ : Prop where
  transposes_S50x136_S136x50_1_0 : S50x136.Transposes [1, 0] S136x50
  bcast_S50_S1x50_1 : S50.BroadcastsInDim S1x50 (![1] : Fin 1 → Fin S1x50.rank)
  bcast_S1x50_S8192x50_0_1 : S1x50.BroadcastsInDim S8192x50 (![0, 1] : Fin 2 → Fin S8192x50.rank)
  transposes_S1x50_S50x1_1_0 : S1x50.Transposes [1, 0] S50x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  slices_S8192x8192_S5x1_0_0 : S8192x8192.Slices ![0, 0] S5x1
  shapeCasts_S5x1_S5 : S5x1.ShapeCasts S5
  reducesTo_S5_S_d0 : S5.ReducesTo [0] S_
  h_S_ : 0 < S_.numel
  dot_S8192x136_S136x50_S8192x50_1_0_0_1_n_n_wf : DotDims.WF S8192x136 S136x50 S8192x50 [1] [0] [0] [1] [] []
  dot_S8192x50_S50x1_S8192x1_1_0_0_1_n_n_wf : DotDims.WF S8192x50 S50x1 S8192x1 [1] [0] [0] [1] [] []

variable [Facts₀]

def dot_S8192x136_S136x50_S8192x50_1_0_0_1_n_n : DotDims S8192x136 S136x50 S8192x50 where
  lhsContracting := [1]
  rhsContracting := [0]
  lhsNonContracting := [0]
  rhsNonContracting := [1]
  lhsBatch := []
  rhsBatch := []
  wf := dot_S8192x136_S136x50_S8192x50_1_0_0_1_n_n_wf
def dot_S8192x50_S50x1_S8192x1_1_0_0_1_n_n : DotDims S8192x50 S50x1 S8192x1 where
  lhsContracting := [1]
  rhsContracting := [0]
  lhsNonContracting := [0]
  rhsNonContracting := [1]
  lhsBatch := []
  rhsBatch := []
  wf := dot_S8192x50_S50x1_S8192x1_1_0_0_1_n_n_wf

class Facts : Prop extends Facts₀ where

variable [Facts]
-- ==== Proof.Scalar.lean ====
/-
  Scalar facts on the extended reals that join the two programs' spellings of one loss term.

  Both programs compute, for a pair of scores, the expanded cube `s`, then
  `log (1 + exp (-(|s + ε| ^ p · sign s)))`. They spell three pieces differently:
  * the power: `exp (p · log a)` against `a ^ p` (for `a = |t| ≥ 0` and a real `p > 0` these agree at
    every extended real: at `a = 0` both are `0`, at `a = ⊤` both are `⊤`, in between
    `a ^ p = exp (log a · p)`);
  * the negation: `0 - d` against `(-1) · d`;
  * the exponent `p` is the binary32 number nearest 0.33, a positive real.
-/
import Idealize.ShloMosaic.PureOps.Ideal
import Idealize.ShloMosaic.PureOps.Ideal.Laws
import Idealize.ShloMosaic.PureOps.IdealRules

noncomputable section

namespace Cert.RankLoss

open Idealize.ShloMosaic

/-- The exponent's pattern denotes the real `11072963 / 2 ^ 25` (0.33 rounded to binary32). -/
theorem ofBits_expo : Ideal.ofBits .f32 0x3EA8F5C3#32 = ((11072963 / 33554432 : ℝ) : EReal) := by
  simp [Ideal.ofBits, Ideal.ieee, -EReal.coe_mul]; norm_num

/-- `-1.0`'s pattern denotes `-1`. -/
theorem ofBits_negOne : Ideal.ofBits .f32 0xBF800000#32 = -1 :=
  IdealRules.sign_bit.ideal_negOnePat .f32

/-- `1.0`'s pattern denotes `1`. -/
theorem ofBits_one : Ideal.ofBits .f32 0x3F800000#32 = 1 :=
  IdealRules.sign_bit.ideal_onePat .f32

/-- The absolute value of an extended real, `max t (-t)`, at a real is the real's absolute value. -/
theorem max_neg_coe (r : ℝ) : max (r : EReal) (-(r : EReal)) = ((|r| : ℝ) : EReal) := by
  rw [← EReal.coe_neg, abs_eq_max_neg]
  exact (EReal.coe_strictMono.monotone.map_max).symm

/-- For a real exponent `p > 0`, `exp (p · log a) = a ^ p` at every absolute value `a = max t (-t)` of an
    extended real: `⊤` on both sides at the infinities, `0` on both sides at `t = 0`
    (`log 0 = ⊥`, `p · ⊥ = ⊥`, `exp ⊥ = 0`, and `0 ^ p = 0`), and Mathlib's definition of the real power
    of a positive base elsewhere. -/
theorem exp_mul_log_abs (p : ℝ) (hp : 0 < p) (t : EReal) :
    Ideal.exp ((p : EReal) * Ideal.log (max t (-t))) = Ideal.pow (max t (-t)) (p : EReal) := by
  have hp' : (0 : EReal) < (p : EReal) := EReal.coe_pos.mpr hp
  induction t using EReal.rec with
  | bot =>
    have h : max (⊥ : EReal) (-⊥) = ⊤ := by simp
    rw [h, Ideal.log_top, EReal.mul_top_of_pos hp', Ideal.exp_top, Ideal.pow_top, if_pos hp']
  | top =>
    have h : max (⊤ : EReal) (-⊤) = ⊤ := by simp
    rw [h, Ideal.log_top, EReal.mul_top_of_pos hp', Ideal.exp_top, Ideal.pow_top, if_pos hp']
  | coe r =>
    rw [max_neg_coe, Ideal.log_coe, Ideal.pow_coe_coe]
    by_cases h0 : |r| ≤ 0
    · have hr : |r| = 0 := le_antisymm h0 (abs_nonneg r)
      rw [if_pos h0, EReal.mul_bot_of_pos hp', Ideal.exp_bot, hr]
      show (0 : EReal) = ((Real.rpow 0 p : ℝ) : EReal)
      rw [show Real.rpow 0 p = (0 : ℝ) ^ p from rfl, Real.zero_rpow hp.ne', EReal.coe_zero]
    · rw [if_neg h0, ← EReal.coe_mul, Ideal.exp_coe]
      have hpos : 0 < |r| := lt_of_not_ge h0
      show ((Real.exp (p * Real.log |r|) : ℝ) : EReal) = ((Real.rpow |r| p : ℝ) : EReal)
      rw [show Real.rpow |r| p = |r| ^ p from rfl, Real.rpow_def_of_pos hpos, mul_comm]

/-- The same with the exponent spelled by its pattern. -/
theorem exp_mul_log_abs_expo (t : EReal) :
    Ideal.exp (Ideal.ofBits .f32 0x3EA8F5C3#32 * Ideal.log (max t (-t)))
      = Ideal.pow (max t (-t)) (Ideal.ofBits .f32 0x3EA8F5C3#32) := by
  rw [ofBits_expo]
  exact exp_mul_log_abs _ (by norm_num) t

/-- Subtracting from zero is multiplying by `-1`, at every extended real. -/
theorem zero_sub_eq_negOne_mul (d : EReal) :
    Ideal.ofBits .f32 0x00000000#32 - d = Ideal.ofBits .f32 0xBF800000#32 * d := by
  rw [Ideal.ofBits_zero_f32, ofBits_negOne, zero_sub, neg_mul, one_mul]

end Cert.RankLoss

end
-- ==== Proof.Spec.lean ====
/-
  The pairwise ranking loss both programs compute, as one function on the extended reals.

  A two-layer scorer gives each row `x` of the data the score
  `score x = (∑ j, tanh ((∑ k, x k · W1 j k) + b1 j) · W2 j) + b2`.
  For a pair of scores `(x, y)` the expanded cube is `s = x³ − 3x²y + 3xy² − y³` (kept in its four terms, in the
  order both programs multiply them), and the pair's term is `log (1 + exp (−(|s + ε| ^ p · sign s)))`.
  The loss is the sum of the terms of rows 0 … 4 against row 0, divided by 2 ^ 26.

  `term` is written in the reference's spelling (a power, a product with `-1`, `log (1 + ·)`);
  `term_eq_kernel` says the kernel's spelling (`exp (p · log ·)`, `0 − ·`, `log1p`) is the same extended real.
-/
import proofs.«119599_j25735444037693_2_alg».proof.Proof.Scalar

noncomputable section

namespace Cert.RankLoss

open Idealize.ShloMosaic

/-- One row's score: the hidden layer's `tanh` of an affine map, then an affine map to a number. -/
def score (x : Fin 136 → EReal) (W1 : Fin 50 → Fin 136 → EReal) (b1 : Fin 50 → EReal) (W2 : Fin 50 → EReal)
    (b2 : EReal) : EReal :=
  (∑ j : Fin 50, Ideal.tanh ((∑ k : Fin 136, x k * W1 j k) + b1 j) * W2 j) + b2

/-- The expanded cube `x³ − 3x²y + 3xy² − y³`, in the programs' order of operations. -/
def cube (x y : EReal) : EReal :=
  x * x * x - Ideal.ofBits .f32 0x40400000#32 * (x * x) * y + Ideal.ofBits .f32 0x40400000#32 * x * (y * y) - y * y * y

/-- A pair's loss term from its cube `s`: `log (1 + exp (−1 · (|s + ε| ^ p · sign s)))`. -/
def termOf (s : EReal) : EReal :=
  Ideal.log (Ideal.ofBits .f32 0x3F800000#32 + Ideal.exp (Ideal.ofBits .f32 0xBF800000#32 *
    (Ideal.pow (max (s + Ideal.ofBits .f32 0x358637BD#32) (-(s + Ideal.ofBits .f32 0x358637BD#32)))
      (Ideal.ofBits .f32 0x3EA8F5C3#32) * Ideal.sign s)))

/-- The loss: rows 0 … 4 against row 0, summed from zero, over 2 ^ 26. -/
def loss (sc : Fin 5 → EReal) : EReal :=
  Ideal.div (Ideal.ofBits .f32 0x00000000#32 + ∑ i : Fin 5, termOf (cube (sc i) (sc 0)))
    (Ideal.ofBits .f32 0x4C800000#32)

/-- The kernel's spelling of a term — the power as `exp (p · log ·)`, the negation as `0 − ·`, `log1p` —
    is the same extended real, at every `s`. -/
theorem term_eq_kernel (s : EReal) :
    Ideal.log1p (Ideal.exp (Ideal.ofBits .f32 0x00000000#32 -
      Ideal.exp (Ideal.ofBits .f32 0x3EA8F5C3#32 *
        Ideal.log (max (s + Ideal.ofBits .f32 0x358637BD#32) (-(s + Ideal.ofBits .f32 0x358637BD#32)))) * Ideal.sign s))
      = termOf s := by
  unfold termOf Ideal.log1p
  rw [exp_mul_log_abs_expo, zero_sub_eq_negOne_mul, ofBits_one]

/-- Eight rows of which only the first five count, summed from nothing, are the five summed from zero. -/
theorem sum_masked (f : Fin 8 → EReal) :
    f 0 + f 1 + f 2 + f 3 + f 4 + Ideal.ofBits .f32 0x00000000#32 + Ideal.ofBits .f32 0x00000000#32 + Ideal.ofBits .f32 0x00000000#32
      = Ideal.ofBits .f32 0x00000000#32 + ∑ i : Fin 5, f (Fin.castLE (by decide) i) := by
  rw [Fin.sum_univ_five, Ideal.ofBits_zero_f32, add_zero, add_zero, add_zero, zero_add]
  rfl

end Cert.RankLoss

end
-- ==== Proof.Body.lean ====
/-
  What the kernel's body stores, read at its one index.

  The body loads a block of eight data rows, the two weight matrices and the two biases, and stores one number.
  Its arithmetic is the generated payload terms `k0_pay1 … k0_pay5`. Read at an index:
  * the scores of the eight rows are `score` of each row (two matrix products into a zero accumulator are
    plain sums over the contracted coordinate; a one-row bias broadcast over the rows reads its row);
  * the cube of row `r` against row 0 is `cube (score r) (score 0)` (the slice `[0:1, 0:1]` of the score column
    broadcast back over the rows reads the column's first entry);
  * the stored number is the masked sum over the eight rows of each row's term, over 2 ^ 26, and the mask
    `row < 5` keeps rows 0 … 4: that is `loss` of the first five scores.
-/
import proofs.«119599_j25735444037693_2_alg».proof.Proof.Gen.KernelIdeal.Skeleton
import proofs.«119599_j25735444037693_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.RankLoss

/-! ## The two matrix products at an entry -/

theorem lhs1_0 (i : S8x50.Idx) (q : dot_S8x136_S50x136_S8x50_1_1_0_0_n_n.contr.Idx) :
    (dot_S8x136_S50x136_S8x50_1_1_0_0_n_n.lhsIdx i q 0).val = (i 0).val := by
  unfold DotDims.lhsIdx
  rw [dif_neg (show ¬(0 : Fin S8x136.rank) ∈ dot_S8x136_S50x136_S8x50_1_1_0_0_n_n.lhsBatch by decide), dif_pos (show (0 : Fin S8x136.rank) ∈ dot_S8x136_S50x136_S8x50_1_1_0_0_n_n.lhsNonContracting by decide)]
  rfl

theorem rhs1_0 (i : S8x50.Idx) (q : dot_S8x136_S50x136_S8x50_1_1_0_0_n_n.contr.Idx) :
    (dot_S8x136_S50x136_S8x50_1_1_0_0_n_n.rhsIdx i q 0).val = (i 1).val := by
  unfold DotDims.rhsIdx
  rw [dif_neg (show ¬(0 : Fin S50x136.rank) ∈ dot_S8x136_S50x136_S8x50_1_1_0_0_n_n.rhsBatch by decide), dif_pos (show (0 : Fin S50x136.rank) ∈ dot_S8x136_S50x136_S8x50_1_1_0_0_n_n.rhsNonContracting by decide)]
  rfl

/-- Rows times rows: entry `(r, j)` of the first product is `∑ k, lhs (r, k) · rhs (j, k)`. -/
theorem matmul1_apply (lhs : FVec Ideal S8x136 .f32) (rhs : FVec Ideal S50x136 .f32) (r : Fin 8) (j : Fin 50) :
    matmul dot_S8x136_S50x136_S8x50_1_1_0_0_n_n (some .fp32) lhs rhs (constant (F := Ideal) S8x50 .f32 0x00000000#32) (ix2 r j)
      = ∑ k : Fin 136, lhs (ix2 r k) * rhs (ix2 j k) := by
  simp only [matmul]
  rw [Ideal.matmul_constant_zero_apply, ← Equiv.sum_comp (contrEquiv1 dot_S8x136_S50x136_S8x50_1_1_0_0_n_n 136 rfl rfl).symm]
  refine Finset.sum_congr rfl fun k _ => ?_
  have hk := contrEquiv1_symm_val dot_S8x136_S50x136_S8x50_1_1_0_0_n_n 136 rfl rfl k
  have el : dot_S8x136_S50x136_S8x50_1_1_0_0_n_n.lhsIdx (ix2 r j) ((contrEquiv1 dot_S8x136_S50x136_S8x50_1_1_0_0_n_n 136 rfl rfl).symm k) = ix2 r k := funext fun a => Fin.ext (by
    match a with
    | ⟨0, _⟩ => exact lhs1_0 _ _
    | ⟨1, _⟩ => exact (dot_S8x136_S50x136_S8x50_1_1_0_0_n_n.lhsIdx_val_of_single rfl _ _).trans hk)
  have er : dot_S8x136_S50x136_S8x50_1_1_0_0_n_n.rhsIdx (ix2 r j) ((contrEquiv1 dot_S8x136_S50x136_S8x50_1_1_0_0_n_n 136 rfl rfl).symm k) = ix2 j k := funext fun a => Fin.ext (by
    match a with
    | ⟨0, _⟩ => exact rhs1_0 _ _
    | ⟨1, _⟩ => exact (dot_S8x136_S50x136_S8x50_1_1_0_0_n_n.rhsIdx_val_of_single rfl _ _).trans hk)
  rw [el, er]

theorem lhs2_0 (i : S8x1.Idx) (q : dot_S8x50_S1x50_S8x1_1_1_0_0_n_n.contr.Idx) :
    (dot_S8x50_S1x50_S8x1_1_1_0_0_n_n.lhsIdx i q 0).val = (i 0).val := by
  unfold DotDims.lhsIdx
  rw [dif_neg (show ¬(0 : Fin S8x50.rank) ∈ dot_S8x50_S1x50_S8x1_1_1_0_0_n_n.lhsBatch by decide), dif_pos (show (0 : Fin S8x50.rank) ∈ dot_S8x50_S1x50_S8x1_1_1_0_0_n_n.lhsNonContracting by decide)]
  rfl

theorem rhs2_0 (i : S8x1.Idx) (q : dot_S8x50_S1x50_S8x1_1_1_0_0_n_n.contr.Idx) :
    (dot_S8x50_S1x50_S8x1_1_1_0_0_n_n.rhsIdx i q 0).val = (i 1).val := by
  unfold DotDims.rhsIdx
  rw [dif_neg (show ¬(0 : Fin S1x50.rank) ∈ dot_S8x50_S1x50_S8x1_1_1_0_0_n_n.rhsBatch by decide), dif_pos (show (0 : Fin S1x50.rank) ∈ dot_S8x50_S1x50_S8x1_1_1_0_0_n_n.rhsNonContracting by decide)]
  rfl

/-- Entry `(r, 0)` of the second product is `∑ j, lhs (r, j) · rhs (0, j)`. -/
theorem matmul2_apply (lhs : FVec Ideal S8x50 .f32) (rhs : FVec Ideal S1x50 .f32) (r : Fin 8) :
    matmul dot_S8x50_S1x50_S8x1_1_1_0_0_n_n (some .fp32) lhs rhs (constant (F := Ideal) S8x1 .f32 0x00000000#32) (ix2 r (0 : Fin 1))
      = ∑ j : Fin 50, lhs (ix2 r j) * rhs (ix2 (0 : Fin 1) j) := by
  simp only [matmul]
  rw [Ideal.matmul_constant_zero_apply, ← Equiv.sum_comp (contrEquiv1 dot_S8x50_S1x50_S8x1_1_1_0_0_n_n 50 rfl rfl).symm]
  refine Finset.sum_congr rfl fun k _ => ?_
  have hk := contrEquiv1_symm_val dot_S8x50_S1x50_S8x1_1_1_0_0_n_n 50 rfl rfl k
  have el : dot_S8x50_S1x50_S8x1_1_1_0_0_n_n.lhsIdx (ix2 r (0 : Fin 1)) ((contrEquiv1 dot_S8x50_S1x50_S8x1_1_1_0_0_n_n 50 rfl rfl).symm k) = ix2 r k := funext fun a => Fin.ext (by
    match a with
    | ⟨0, _⟩ => exact lhs2_0 _ _
    | ⟨1, _⟩ => exact (dot_S8x50_S1x50_S8x1_1_1_0_0_n_n.lhsIdx_val_of_single rfl _ _).trans hk)
  have er : dot_S8x50_S1x50_S8x1_1_1_0_0_n_n.rhsIdx (ix2 r (0 : Fin 1)) ((contrEquiv1 dot_S8x50_S1x50_S8x1_1_1_0_0_n_n 50 rfl rfl).symm k) = ix2 (0 : Fin 1) k := funext fun a => Fin.ext (by
    match a with
    | ⟨0, _⟩ => exact rhs2_0 _ _
    | ⟨1, _⟩ => exact (dot_S8x50_S1x50_S8x1_1_1_0_0_n_n.rhsIdx_val_of_single rfl _ _).trans hk)
  rw [el, er]

/-! ## The scores of the eight rows -/

variable (v0 : FVec Ideal S8x136 .f32) (v1 : FVec Ideal S50x136 .f32) (v2 : FVec Ideal S1x50 .f32)
  (v4 : FVec Ideal S1x50 .f32) (v5 : FVec Ideal S1x1 .f32)

/-- The hidden layer of the eight rows, as the body computes it. -/
def hidden : FVec Ideal S8x50 .f32 :=
  tanh (addf (matmul dot_S8x136_S50x136_S8x50_1_1_0_0_n_n (some .fp32) v0 v1 (constant S8x50 .f32 0x00000000#32))
    (broadcastTo S8x50 (shapeCast S1x50 v2 shapeCasts_S1x50_S1x50) broadcasts_S1x50_S8x50))

/-- The score column of the eight rows, as the body computes it. -/
def scores : FVec Ideal S8x1 .f32 :=
  addf (matmul dot_S8x50_S1x50_S8x1_1_1_0_0_n_n (some .fp32) (hidden v0 v1 v2) v4 (constant S8x1 .f32 0x00000000#32))
    (broadcastTo S8x1 (shapeCast S1x1 v5 shapeCasts_S1x1_S1x1) broadcasts_S1x1_S8x1)

/-- Row `r`'s score as a number: `score` of the row, the weights and the biases read off the loaded blocks. -/
def sc (r : Fin 8) : EReal :=
  score (fun k => v0 (ix2 r k)) (fun j k => v1 (ix2 j k)) (fun j => v2 (ix2 (0 : Fin 1) j)) (fun j => v4 (ix2 (0 : Fin 1) j))
    (v5 (ix2 (0 : Fin 1) (0 : Fin 1)))

theorem hidden_apply (r : Fin 8) (j : Fin 50) :
    hidden v0 v1 v2 (ix2 r j) = Ideal.tanh ((∑ k : Fin 136, v0 (ix2 r k) * v1 (ix2 j k)) + v2 (ix2 (0 : Fin 1) j)) := by
  unfold hidden
  show Ideal.tanh (matmul dot_S8x136_S50x136_S8x50_1_1_0_0_n_n (some .fp32) v0 v1 (constant (F := Ideal) S8x50 .f32 0x00000000#32) (ix2 r j)
    + broadcastTo S8x50 (shapeCast S1x50 v2 shapeCasts_S1x50_S1x50) broadcasts_S1x50_S8x50 (ix2 r j)) = _
  rw [matmul1_apply, broadcastTo_1b_ab_apply, shapeCast_self]

theorem scores_apply (r : Fin 8) : scores v0 v1 v2 v4 v5 (ix2 r (0 : Fin 1)) = sc v0 v1 v2 v4 v5 r := by
  unfold scores sc score
  show matmul dot_S8x50_S1x50_S8x1_1_1_0_0_n_n (some .fp32) (hidden v0 v1 v2) v4 (constant (F := Ideal) S8x1 .f32 0x00000000#32) (ix2 r (0 : Fin 1))
    + broadcastTo S8x1 (shapeCast S1x1 v5 shapeCasts_S1x1_S1x1) broadcasts_S1x1_S8x1 (ix2 r (0 : Fin 1)) = _
  rw [matmul2_apply, broadcastTo_1b_ab_apply, shapeCast_self]
  simp only [hidden_apply]

/-! ## The cubes against row 0 -/

/-- The body's cube column from its score column. -/
def cubes (v13 : FVec Ideal S8x1 .f32) : FVec Ideal S8x1 .f32 :=
  have v14 : FVec Ideal S1x1 .f32 := extractStridedSlice S1x1 ![0, 0] v13 slices_S8x1_o0_0_S1x1
  have v15 : FVec Ideal S8x1 .f32 := mulf v13 v13
  have v16 : FVec Ideal S8x1 .f32 := mulf v15 v13
  have v17 : FVec Ideal S8x1 .f32 := mulf v13 v13
  have cst_10 : Ideal .f32 := Scalar.ofBits .f32 0x40400000#32
  have v18 : FVec Ideal S8x1 .f32 := broadcast S8x1 cst_10
  have v19 : FVec Ideal S8x1 .f32 := mulf v18 v17
  have v20 : FVec Ideal S8x1 .f32 := broadcastTo S8x1 v14 broadcasts_S1x1_S8x1
  have v21 : FVec Ideal S8x1 .f32 := mulf v19 v20
  have v22 : FVec Ideal S8x1 .f32 := subf v16 v21
  have cst_11 : Ideal .f32 := Scalar.ofBits .f32 0x40400000#32
  have v23 : FVec Ideal S8x1 .f32 := broadcast S8x1 cst_11
  have v24 : FVec Ideal S8x1 .f32 := mulf v23 v13
  have v25 : FVec Ideal S1x1 .f32 := mulf v14 v14
  have v26 : FVec Ideal S8x1 .f32 := broadcastTo S8x1 v25 broadcasts_S1x1_S8x1
  have v27 : FVec Ideal S8x1 .f32 := mulf v24 v26
  have v28 : FVec Ideal S8x1 .f32 := addf v22 v27
  have v29 : FVec Ideal S1x1 .f32 := mulf v14 v14
  have v30 : FVec Ideal S1x1 .f32 := mulf v29 v14
  have v31 : FVec Ideal S8x1 .f32 := broadcastTo S8x1 v30 broadcasts_S1x1_S8x1
  subf v28 v31

/-- The cube payload is the cube column of the score column. -/
theorem pay2_eq : k0_pay2 (F := Ideal) v0 v1 v2 v4 v5 = cubes (scores v0 v1 v2 v4 v5) := rfl

/-- The slice `[0:1, 0:1]` of a column reads its first entry. -/
theorem first_apply (x : FVec Ideal S8x1 .f32) :
    extractStridedSlice S1x1 ![0, 0] x slices_S8x1_o0_0_S1x1 (ix2 (0 : Fin 1) (0 : Fin 1)) = x (ix2 (0 : Fin 8) (0 : Fin 1)) :=
  slice2_axis0_apply 0 x slices_S8x1_o0_0_S1x1 (0 : Fin 1) (0 : Fin 1) (0 : Fin 8) rfl

theorem cubes_apply (x : FVec Ideal S8x1 .f32) (r : Fin 8) :
    cubes x (ix2 r (0 : Fin 1)) = cube (x (ix2 r (0 : Fin 1))) (x (ix2 (0 : Fin 8) (0 : Fin 1))) := by
  unfold cubes cube
  simp only [subf_apply, addf_apply, mulf_apply, broadcast_apply, broadcastTo_1b_ab_apply, first_apply]
  rfl

end Cert.KernelIdeal.Body

end
-- ==== Proof.Stored.lean ====
/-
  The number the kernel's body stores, as `loss` of the first five rows' scores.

  From the cube column `c` the body forms, row by row, `log1p (exp (0 − exp (p · log |c + ε|) · sgn c))` with
  `sgn c` spelled as two selects (`1` carrying `c`'s sign where `|c| > 0`, else `c` itself: `sign c` at every
  extended real), masks the rows `≥ 5` to zero by comparing a row counter with 5, sums the column, and divides by 2 ^ 26.
  Row by row the term is `termOf`; the masked sum of eight is the sum of the first five from zero.
-/
import proofs.«119599_j25735444037693_2_alg».proof.Proof.Body

noncomputable section

namespace Cert.KernelIdeal.Body

open Cert.KernelIdeal Cert.KernelIdeal.Gen Idealize.ShloMosaic Idealize.ShloMosaic.ValueIdx Cert.RankLoss

/-- The stored block from the cube column alone: the four values the last part of the body takes are the cube
    column, the column plus `ε`, `±1` by the column's sign, and where the column is not zero. -/
def stored (c : FVec Ideal S8x1 .f32) : FVec Ideal S1x1 .f32 :=
  k0_pay1 c (addf c (broadcast S8x1 (Scalar.ofBits .f32 0x358637BD#32)))
    (select (cmpf .olt c (constant S8x1 .f32 0x00000000#32)) (constant S8x1 .f32 0xBF800000#32) (constant S8x1 .f32 0x3F800000#32))
    (cmpf .ogt (absf c) (broadcast S8x1 (Scalar.ofBits .f32 0x00000000#32)))

theorem pay1_eq (v0 : FVec Ideal S8x136 .f32) (v1 : FVec Ideal S50x136 .f32) (v2 : FVec Ideal S1x50 .f32)
    (v4 : FVec Ideal S1x50 .f32) (v5 : FVec Ideal S1x1 .f32) :
    k0_pay1 (F := Ideal) (k0_pay2 (F := Ideal) v0 v1 v2 v4 v5) (k0_pay3 (F := Ideal) v0 v1 v2 v4 v5)
        (k0_pay4 (F := Ideal) v0 v1 v2 v4 v5) (k0_pay5 (F := Ideal) v0 v1 v2 v4 v5)
      = stored (k0_pay2 (F := Ideal) v0 v1 v2 v4 v5) := rfl

/-- The sum of a column over its eight rows. -/
theorem colsum_apply (v : FVec Ideal S8x1 .f32) (hφ : FKind.Formats .f32)
    (hacc : (0x00000000#32 : BitVec FTy.f32.bits) = FKind.add.neutral .f32 hφ) :
    multiReduction .add [0] S1 v 0x00000000#32 reduces_S8x1_S1 hφ hacc (ix1 (0 : Fin 1))
      = ∑ k : Fin 8, v (ix2 k (0 : Fin 1)) := by
  refine (Ideal.multiReduction_add_single v 0x00000000#32 reduces_S8x1_S1 hφ hacc (ix1 (0 : Fin 1))).trans ?_
  show ∑ k : Fin 8, v (reduces_S8x1_S1.lift (ix1 (0 : Fin 1)) k) = _
  refine Finset.sum_congr rfl fun k _ => congrArg v ?_
  funext a
  match a with
  | ⟨0, _⟩ => rfl
  | ⟨1, _⟩ => rfl

/-- The row counter compared with 5 keeps rows 0 … 4. -/
theorem masked_sum (T : Fin 8 → EReal) (Z : EReal) :
    ∑ k : Fin 8, Scalar.select (IntOp.cmpi .slt (BitVec.ofNat 32 k.val) 5#32) (T k) Z
      = T 0 + T 1 + T 2 + T 3 + T 4 + Z + Z + Z := by
  have h0 : IntOp.cmpi .slt (BitVec.ofNat 32 (0 : Fin 8).val) 5#32 = 1#1 := by decide
  have h1 : IntOp.cmpi .slt (BitVec.ofNat 32 (1 : Fin 8).val) 5#32 = 1#1 := by decide
  have h2 : IntOp.cmpi .slt (BitVec.ofNat 32 (2 : Fin 8).val) 5#32 = 1#1 := by decide
  have h3 : IntOp.cmpi .slt (BitVec.ofNat 32 (3 : Fin 8).val) 5#32 = 1#1 := by decide
  have h4 : IntOp.cmpi .slt (BitVec.ofNat 32 (4 : Fin 8).val) 5#32 = 1#1 := by decide
  have h5 : IntOp.cmpi .slt (BitVec.ofNat 32 (5 : Fin 8).val) 5#32 = 0#1 := by decide
  have h6 : IntOp.cmpi .slt (BitVec.ofNat 32 (6 : Fin 8).val) 5#32 = 0#1 := by decide
  have h7 : IntOp.cmpi .slt (BitVec.ofNat 32 (7 : Fin 8).val) 5#32 = 0#1 := by decide
  rw [Fin.sum_univ_eight, h0, h1, h2, h3, h4, h5, h6, h7]
  simp only [select_one, select_zero]

/-- Row `k` of the masked column: `termOf` of the row's cube under the mask. -/
theorem stored_apply (c : FVec Ideal S8x1 .f32) :
    stored c (ix2 (0 : Fin 1) (0 : Fin 1))
      = Ideal.div (∑ k : Fin 8, Scalar.select (IntOp.cmpi .slt (BitVec.ofNat 32 k.val) 5#32)
          (termOf (c (ix2 k (0 : Fin 1)))) (Ideal.ofBits .f32 0x00000000#32)) (Ideal.ofBits .f32 0x4C800000#32) := by
  unfold stored k0_pay1
  simp only [divf_apply, broadcast_apply, shapeCast_a_1a_apply]
  refine congrArg (fun z => Ideal.div z _) ((colsum_apply _ _ _).trans (Finset.sum_congr rfl fun k _ => ?_))
  generalize hs : c (ix2 k (0 : Fin 1)) = s
  show Scalar.select (IntOp.cmpi .slt (iota .tc S8x1 32 [0] iota_S8x1_d0_w32 (ix2 k (0 : Fin 1))) 5#32)
      (Ideal.log1p (Ideal.exp (Ideal.ofBits .f32 0x00000000#32 -
        Ideal.exp (Ideal.ofBits .f32 0x3EA8F5C3#32 *
          Ideal.log (max (c (ix2 k (0 : Fin 1)) + Ideal.ofBits .f32 0x358637BD#32) (-(c (ix2 k (0 : Fin 1)) + Ideal.ofBits .f32 0x358637BD#32)))) *
          Scalar.select (FloatOps.cmpf .ogt (FloatOps.absf (c (ix2 k (0 : Fin 1)))) (Scalar.ofBits .f32 0x00000000#32))
            (Scalar.select (FloatOps.cmpf .olt (c (ix2 k (0 : Fin 1))) (Scalar.ofBits .f32 0x00000000#32)) (Scalar.ofBits .f32 0xBF800000#32)
              (Scalar.ofBits .f32 0x3F800000#32)) (c (ix2 k (0 : Fin 1))))))
      (Ideal.ofBits .f32 0x00000000#32) = _
  rw [hs, iota_single_apply, Ideal.jnp_sign_eq_sign_f32, term_eq_kernel]

/-- The masked column sum is the first five rows' sum from zero. -/
theorem masked_total (T : Fin 8 → EReal) :
    ∑ k : Fin 8, Scalar.select (IntOp.cmpi .slt (BitVec.ofNat 32 k.val) 5#32) (T k) (Ideal.ofBits .f32 0x00000000#32)
      = Ideal.ofBits .f32 0x00000000#32 + ∑ i : Fin 5, T (Fin.castLE (by decide) i) :=
  (masked_sum T _).trans (sum_masked T)

/-- WHAT THE BODY STORES, at its one index, from the blocks it loads: `loss` of the scores of the block's first five rows. -/
theorem stored_loss (v0 : FVec Ideal S8x136 .f32) (v1 : FVec Ideal S50x136 .f32) (v2 : FVec Ideal S1x50 .f32)
    (v4 : FVec Ideal S1x50 .f32) (v5 : FVec Ideal S1x1 .f32) :
    k0_pay1 (F := Ideal) (k0_pay2 (F := Ideal) v0 v1 v2 v4 v5) (k0_pay3 (F := Ideal) v0 v1 v2 v4 v5)
        (k0_pay4 (F := Ideal) v0 v1 v2 v4 v5) (k0_pay5 (F := Ideal) v0 v1 v2 v4 v5) (ix2 (0 : Fin 1) (0 : Fin 1))
      = loss (fun i : Fin 5 => sc v0 v1 v2 v4 v5 (Fin.castLE (by decide) i)) := by
  rw [pay1_eq, pay2_eq, stored_apply, masked_total]
  simp only [cubes_apply, scores_apply]
  rfl

end Cert.KernelIdeal.Body

end
-- ==== Proof.KernelRun.lean ====
/-
  The kernel's run, with its result named.

  The one grid point fetches block (0, 0) of every window — rows 0 … 7 of the data, and each of the other arrays
  whole (the two biases as the host's reshapes of the one-axis arguments) — and writes back the one stored number.
  So the result array ends holding `loss` of the first five rows' scores of the data as launched, and the host's
  final reshape to a scalar keeps that number.
-/
import proofs.«119599_j25735444037693_2_alg».proof.Proof.Gen.KernelIdeal.Frame
import proofs.«119599_j25735444037693_2_alg».proof.Proof.Stored
import Idealize.ShloMosaic.Lib.Pipeline.Value
import Idealize.ShloMosaic.Lib.StableHlo.Run
import Idealize.ShloMosaic.Lib.ValueLayout

noncomputable section

namespace Cert.KernelIdeal.KernelValue

open Cert.KernelIdeal Cert.KernelIdeal.Gen Cert.KernelIdeal.Body Idealize.ShloMosaic Idealize.ShloMosaic.TcCoe
  Idealize.SL.Sem Idealize.ShloMosaic.ValueIdx Cert.RankLoss
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Row `r`'s score of the data as launched. -/
def ksc (c : Dev nD) (r : Fin 8192) : EReal :=
  score (fun k => (m ((c : Thread nD τ).loc main_arg0) : S8192x136.Idx → EReal) (ix2 r k))
    (fun j k => (m ((c : Thread nD τ).loc main_arg3) : S50x136.Idx → EReal) (ix2 j k))
    (fun j => (m ((c : Thread nD τ).loc main_arg4) : S50.Idx → EReal) (ix1 j))
    (fun j => (m ((c : Thread nD τ).loc main_arg5) : S1x50.Idx → EReal) (ix2 (0 : Fin 1) j))
    ((m ((c : Thread nD τ).loc main_arg6) : S1.Idx → EReal) (ix1 (0 : Fin 1)))

/-- The number the program returns. -/
def result (c : Dev nD) : EReal := loss (fun i : Fin 5 => ksc m c (Fin.castLE (by decide) i))

/-- Every window's block index at the one grid point is (0, 0). -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The two reshaped biases as the region finds them -/

theorem V_main_v0 (c : Dev nD) :
    (V m c main_v0 : S1x50.Idx → EReal) = shapeCast S1x50 (m ((c : Thread nD τ).loc main_arg4)) shapeCasts_S50_S1x50 := by
  show StableHlo.after hostOps0 (fun b => m (c, b)) (Proc.devRef .tc main_v0) = _
  after_results
  rfl

theorem V_main_v1 (c : Dev nD) :
    (V m c main_v1 : S1x1.Idx → EReal) = shapeCast S1x1 (m ((c : Thread nD τ).loc main_arg6)) shapeCasts_S1_S1x1 := by
  show StableHlo.after hostOps0 (fun b => m (c, b)) (Proc.devRef .tc main_v1) = _
  after_results
  rfl

/-! ## Each input block read at coordinates -/

theorem blk0_apply (c : Dev nD) (t : Fin cfg0.N) (r : Fin 8) (k : Fin 136) :
    (iblk m c 0 t : FVec Ideal S8x136 .f32) (ix2 r k)
      = (m ((c : Thread nD τ).loc main_arg0) : S8192x136.Idx → EReal) (ix2 (Fin.castLE (by decide) r) k) := by
  obtain ⟨h0, h1, -⟩ := idx_zero t
  unfold iblk
  rw [View.read_apply, ← V_main_arg0 m c]
  show V m c main_arg0 _ = V m c main_arg0 _
  refine congrArg _ (funext fun a => Fin.ext ?_)
  match a with
  | ⟨0, _⟩ => show win0_0.index t (0 : Fin 2) * 8 + 1 * r.val = r.val; rw [h0]; omega
  | ⟨1, _⟩ => show win0_0.index t (1 : Fin 2) * 136 + 1 * k.val = k.val; rw [h1]; omega

theorem blk1_apply (c : Dev nD) (t : Fin cfg0.N) (j : Fin 50) (k : Fin 136) :
    (iblk m c 1 t : FVec Ideal S50x136 .f32) (ix2 j k)
      = (m ((c : Thread nD τ).loc main_arg3) : S50x136.Idx → EReal) (ix2 j k) := by
  obtain ⟨-, -, h0, h1, -⟩ := idx_zero t
  unfold iblk
  rw [View.read_apply, ← V_main_arg3 m c]
  show V m c main_arg3 _ = V m c main_arg3 _
  refine congrArg _ (funext fun a => Fin.ext ?_)
  match a with
  | ⟨0, _⟩ => show win0_1.index t (0 : Fin 2) * 50 + 1 * j.val = j.val; rw [h0]; omega
  | ⟨1, _⟩ => show win0_1.index t (1 : Fin 2) * 136 + 1 * k.val = k.val; rw [h1]; omega

theorem blk2_apply (c : Dev nD) (t : Fin cfg0.N) (j : Fin 50) :
    (iblk m c 2 t : FVec Ideal S1x50 .f32) (ix2 (0 : Fin 1) j)
      = (m ((c : Thread nD τ).loc main_arg4) : S50.Idx → EReal) (ix1 j) := by
  obtain ⟨-, -, -, -, h0, h1, -⟩ := idx_zero t
  unfold iblk
  rw [View.read_apply]
  show V m c main_v0 _ = _
  refine (congrArg (V m c main_v0) (?_ : _ = ix2 (0 : Fin 1) j)).trans ?_
  · refine funext fun a => Fin.ext ?_
    match a with
    | ⟨0, _⟩ => show win0_2.index t (0 : Fin 2) * 1 + 1 * 0 = 0; rw [h0]
    | ⟨1, _⟩ => show win0_2.index t (1 : Fin 2) * 50 + 1 * j.val = j.val; rw [h1]; omega
  · rw [V_main_v0]
    exact shapeCast_a_1a_apply _ _ (0 : Fin 1) j

theorem blk3_apply (c : Dev nD) (t : Fin cfg0.N) (j : Fin 50) :
    (iblk m c 3 t : FVec Ideal S1x50 .f32) (ix2 (0 : Fin 1) j)
      = (m ((c : Thread nD τ).loc main_arg5) : S1x50.Idx → EReal) (ix2 (0 : Fin 1) j) := by
  obtain ⟨-, -, -, -, -, -, h0, h1, -⟩ := idx_zero t
  unfold iblk
  rw [View.read_apply, ← V_main_arg5 m c]
  show V m c main_arg5 _ = V m c main_arg5 _
  refine congrArg _ (funext fun a => Fin.ext ?_)
  match a with
  | ⟨0, _⟩ => show win0_3.index t (0 : Fin 2) * 1 + 1 * 0 = 0; rw [h0]
  | ⟨1, _⟩ => show win0_3.index t (1 : Fin 2) * 50 + 1 * j.val = j.val; rw [h1]; omega

theorem blk4_apply (c : Dev nD) (t : Fin cfg0.N) :
    (iblk m c 4 t : FVec Ideal S1x1 .f32) (ix2 (0 : Fin 1) (0 : Fin 1))
      = (m ((c : Thread nD τ).loc main_arg6) : S1.Idx → EReal) (ix1 (0 : Fin 1)) := by
  obtain ⟨-, -, -, -, -, -, -, -, h0, h1, -⟩ := idx_zero t
  unfold iblk
  rw [View.read_apply]
  show V m c main_v1 _ = _
  refine (congrArg (V m c main_v1) (?_ : _ = ix2 (0 : Fin 1) (0 : Fin 1))).trans ?_
  · refine funext fun a => Fin.ext ?_
    match a with
    | ⟨0, _⟩ => show win0_4.index t (0 : Fin 2) * 1 + 1 * 0 = 0; rw [h0]
    | ⟨1, _⟩ => show win0_4.index t (1 : Fin 2) * 1 + 1 * 0 = 0; rw [h1]
  · rw [V_main_v1]
    exact shapeCast_a_1a_apply _ _ (0 : Fin 1) (0 : Fin 1)

/-- The block's row `r` scores as row `r` of the data as launched. -/
theorem sc_blocks (c : Dev nD) (t : Fin cfg0.N) (r : Fin 8) :
    sc (iblk m c 0 t) (iblk m c 1 t) (iblk m c 2 t) (iblk m c 3 t) (iblk m c 4 t) r
      = ksc m c (Fin.castLE (by decide) r) := by
  unfold sc ksc
  simp only [blk0_apply, blk1_apply, blk2_apply, blk3_apply, blk4_apply]

/-! ## The write-back and the array after the run -/

/-- What the body leaves in the output's staging buffer at the grid point: the result, at its one index. -/
theorem out_eq (c : Dev nD) (t : Fin cfg0.N) :
    out0_5 (iblk m c 0 t) (iblk m c 1 t) (iblk m c 2 t) (iblk m c 3 t) (iblk m c 4 t) = fun _ => result m c := by
  unfold out0_5
  rw [View.canon_unit_zero hz]
  simp only [View.ld_unit_zero (S := S8x136) hz, View.ld_unit_zero (S := S50x136) hz, View.ld_unit_zero (S := S1x50) hz,
    View.ld_unit_zero (S := S1x1) hz]
  funext y
  obtain rfl : y = ix2 (0 : Fin 1) (0 : Fin 1) := by
    funext a
    apply Fin.ext
    match a with
    | ⟨0, _⟩ => have h : (y 0).val < 1 := (y 0).isLt; show (y 0).val = 0; omega
    | ⟨1, _⟩ => have h : (y 1).val < 1 := (y 1).isLt; show (y 1).val = 0; omega
  rw [stored_loss]
  unfold result
  simp only [sc_blocks]
  rfl

/-- The grid point writes back the result: the block of the constant array. -/
theorem flushed_eq (c : Dev nD) (t : Fin cfg0.N) :
    (dats m 0 c).flushed 5 t = ((cfg0.win 5).blk t).view.read (Elt Ideal) (fun _ => result m c) := by
  show (cfg0.win 5).cut (grid0.coords t) ((dats m 0 c).after 5 t) = _
  rw [after0_5, out_eq]
  rfl

/-- The result array after the run holds the result: the one block covers its one index. -/
theorem final5 (c : Dev nD) : (dats m 0 c).arrAt 5 cfg0.N = fun _ => result m c :=
  (dats m 0 c).arrAt_eq_of_cover 5 (fun _ => result m c) (fun t _ => flushed_eq m c t) fun i =>
    ⟨t0_0, flush0_5 t0_0, by
      obtain ⟨-, -, -, -, -, -, -, -, -, -, h0, h1⟩ := idx_zero t0_0
      show i ∈ ((View.whole main_v2).slice (win0_5.rect t0_0)).set
      rw [View.set_slice_whole, Rect.mem_set_unit]
      show ∀ a : Fin 2, win0_5.index t0_0 a * S1x1.size a ≤ (i a).val ∧ (i a).val < win0_5.index t0_0 a * S1x1.size a + S1x1.size a
      intro a
      match a with
      | ⟨0, _⟩ =>
        have hi : (i 0).val < 1 := (i 0).isLt
        show win0_5.index t0_0 (0 : Fin 2) * 1 ≤ (i 0).val ∧ (i 0).val < win0_5.index t0_0 (0 : Fin 2) * 1 + 1
        rw [h0]; omega
      | ⟨1, _⟩ =>
        have hi : (i 1).val < 1 := (i 1).isLt
        show win0_5.index t0_0 (1 : Fin 2) * 1 ≤ (i 1).val ∧ (i 1).val < win0_5.index t0_0 (1 : Fin 2) * 1 + 1
        rw [h1]; omega⟩

/-! ## The host's reshape after the region, and the run -/

/-- The returned scalar: the reshape of the one-entry result array keeps its number. -/
theorem tail_eq (c : Dev nD) :
    Pipeline.afterTail₀ cfgs (dats m) 0 (V0 m) [hostOps1] c main_v3 = fun _ => result m c := by
  unfold Pipeline.afterTail₀
  show StableHlo.after hostOps1 _ (Proc.devRef .tc main_v3) = _
  after_results
  rw [Pipeline.withArrays_arr spec0 launch0.win.arr_inj c _ _ 5, final5]
  rfl

/-- The run: every weakly fair execution ends with the returned scalar at `result` and the arguments as launched. -/
theorem run : θ_run defs (onTc (τ := τ) (main (F := Ideal))) ⟨m, fun _ => 0, ρ⟩ fun r => ∀ c : Dev nD,
      r.2.mem ((c.tc : Thread nD τ).loc main_v3) = (fun _ => result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c)⟩)
    (run_main m ρ)

end Cert.KernelIdeal.KernelValue

end
-- ==== Proof.RefValue.lean ====
/-
  The reference's result, read at its one index, as `loss` of the first five rows' scores.

  The reference scores all 8192 rows, forms the full 8192 × 8192 table of pair terms, and sums the five entries of
  rows 0 … 4 in column 0 from zero before dividing by 2 ^ 26. Read one operation at a time (the generated stage
  lemmas), an entry `(i, j)` of the table depends on rows `i` and `j` of the data only:
  * row `r`'s score is `score` of that row (`x @ W1ᵀ` is the sum over the shared coordinate of `x (r, k) · W1 (j, k)`);
  * entry `(i, j)` of the cube table is `cube (score i) (score j)`, and of the term table `termOf` of that;
  * the sliced column is entries `(i, 0)`, `i < 5`.
-/
import proofs.«119599_j25735444037693_2_alg».proof.Proof.Gen.ReferenceIdeal.Read
import proofs.«119599_j25735444037693_2_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
  Cert.RankLoss

/-- A sum over a rank-1 index set is the sum over its one coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable (x0 : (⟨S8192x136, .f32⟩ : BufTy).Contents (Elt Ideal)) (x3 : (⟨S50x136, .f32⟩ : BufTy).Contents (Elt Ideal))
  (x4 : (⟨S50, .f32⟩ : BufTy).Contents (Elt Ideal)) (x5 : (⟨S1x50, .f32⟩ : BufTy).Contents (Elt Ideal))
  (x6 : (⟨S1, .f32⟩ : BufTy).Contents (Elt Ideal))

/-- Row `r`'s score as a number: `score` of the row, the weights and the biases read off the arguments. -/
def rsc (r : Fin 8192) : EReal :=
  score (fun k => x0 (ix2 r k)) (fun j k => x3 (ix2 j k)) (fun j => x4 (ix1 j)) (fun j => x5 (ix2 (0 : Fin 1) j))
    (x6 (ix1 (0 : Fin 1)))

/-! ## Where each layout operation reads: the composed index maps at coordinates -/

theorem e_l1 (r : Fin 8192) (j : Fin 50) (k : Fin 136) : lidx_main_v1 (ix2 r j) k = ix2 r k := by
  funext a; match a with | ⟨0, _⟩ => rfl | ⟨1, _⟩ => rfl
theorem e_r1 (r : Fin 8192) (j : Fin 50) (k : Fin 136) : idx_main_v0 (ridx_main_v1 (ix2 r j) k) = ix2 j k := by
  funext a; match a with | ⟨0, _⟩ => rfl | ⟨1, _⟩ => rfl
theorem e_b1 (r : Fin 8192) (j : Fin 50) : idx_main_v2 (idx_main_v3 (ix2 r j)) = ix1 j := by
  funext a; match a with | ⟨0, _⟩ => rfl
theorem e_11 (r : Fin 8192) : idx_main_v11 (ix1 r) = ix2 r (0 : Fin 1) := by
  funext a; match a with | ⟨0, _⟩ => exact Fin.ext (Nat.div_one _) | ⟨1, _⟩ => rfl
theorem e_l7 (r : Fin 8192) (k : Fin 50) : lidx_main_v7 (ix2 r (0 : Fin 1)) k = ix2 r k := by
  funext a; match a with | ⟨0, _⟩ => rfl | ⟨1, _⟩ => rfl
theorem e_r7 (r : Fin 8192) (k : Fin 50) : idx_main_v6 (ridx_main_v7 (ix2 r (0 : Fin 1)) k) = ix2 (0 : Fin 1) k := by
  funext a; match a with | ⟨0, _⟩ => rfl | ⟨1, _⟩ => rfl
theorem e_b2 (r : Fin 8192) : idx_main_v8 (idx_main_v9 (ix2 r (0 : Fin 1))) = ix1 (0 : Fin 1) := by
  funext a; match a with | ⟨0, _⟩ => rfl
theorem e_row19 (I J : Fin 8192) : idx_main_v12 (idx_main_v19 (ix2 I J)) = ix1 I := by
  funext a; match a with | ⟨0, _⟩ => rfl
theorem e_row22 (I J : Fin 8192) : idx_main_v12 (idx_main_v22 (ix2 I J)) = ix1 I := by
  funext a; match a with | ⟨0, _⟩ => rfl
theorem e_row27 (I J : Fin 8192) : idx_main_v12 (idx_main_v27 (ix2 I J)) = ix1 I := by
  funext a; match a with | ⟨0, _⟩ => rfl
theorem e_col20 (I J : Fin 8192) : idx_main_v13 (idx_main_v20 (ix2 I J)) = ix1 J := by
  funext a; match a with | ⟨0, _⟩ => rfl
theorem e_col28 (I J : Fin 8192) : idx_main_v13 (idx_main_v28 (ix2 I J)) = ix1 J := by
  funext a; match a with | ⟨0, _⟩ => rfl
theorem e_col33 (I J : Fin 8192) : idx_main_v13 (idx_main_v33 (ix2 I J)) = ix1 J := by
  funext a; match a with | ⟨0, _⟩ => rfl
theorem e_49 (i : Fin 5) :
    idx_main_v48 (idx_main_v49 (ix1 i)) = ix2 (Fin.castLE (by decide : 5 ≤ 8192) i) (0 : Fin 8192) := by
  funext a; match a with | ⟨0, _⟩ => exact Fin.ext (Nat.div_one _) | ⟨1, _⟩ => rfl

/-! ## The stages at coordinates -/

theorem hidden_apply (r : Fin 8192) (j : Fin 50) :
    val_main_v5 (F := Ideal) x0 x3 x4 (ix2 r j)
      = Ideal.tanh ((∑ k : Fin 136, x0 (ix2 r k) * x3 (ix2 j k)) + x4 (ix1 j)) := by
  rw [val_main_v5_apply, val_main_v4_apply, val_main_v1_apply, val_main_v3_apply, val_main_v2_apply]
  simp only [val_main_v0_apply, e_l1, e_r1, e_b1]
  rfl

theorem scores_apply (r : Fin 8192) :
    val_main_v11 (F := Ideal) x0 x3 x4 x5 x6 (ix1 r) = rsc x0 x3 x4 x5 x6 r := by
  rw [val_main_v11_apply, e_11, val_main_v10_apply, val_main_v7_apply, val_main_v9_apply, val_main_v8_apply]
  simp only [val_main_v6_apply, e_l7, e_r7, e_b2, hidden_apply]
  rfl

theorem cube_apply (I J : Fin 8192) :
    val_main_v34 (F := Ideal) x0 x3 x4 x5 x6 (ix2 I J) = cube (rsc x0 x3 x4 x5 x6 I) (rsc x0 x3 x4 x5 x6 J) := by
  simp only [val_main_v34_apply, val_main_v30_apply, val_main_v33_apply, val_main_v32_apply, val_main_v31_apply,
    val_main_v23_apply, val_main_v29_apply, val_main_v27_apply, val_main_v28_apply, val_main_v25_apply,
    val_main_v26_apply, val_main_v24_apply, val_main_cst_0_apply, val_main_v22_apply, val_main_v21_apply,
    val_main_v15_apply, val_main_v14_apply, val_main_v19_apply, val_main_v20_apply, val_main_v18_apply,
    val_main_v17_apply, val_main_cst_apply, val_main_v16_apply, val_main_v12_apply, val_main_v13_apply,
    e_row19, e_row22, e_row27, e_col20, e_col28, e_col33, scores_apply]
  rfl

theorem term_apply (I J : Fin 8192) :
    val_main_v47 (F := Ideal) x0 x3 x4 x5 x6 (ix2 I J)
      = termOf (cube (rsc x0 x3 x4 x5 x6 I) (rsc x0 x3 x4 x5 x6 J)) := by
  simp only [val_main_v47_apply, val_main_v46_apply, val_main_v45_apply, val_main_cst_4_apply, val_main_v44_apply,
    val_main_v43_apply, val_main_v42_apply, val_main_cst_3_apply, val_main_v41_apply, val_main_v40_apply,
    val_main_v39_apply, val_main_cst_2_apply, val_main_v38_apply, val_main_v37_apply, val_main_v36_apply,
    val_main_cst_1_apply, val_main_v35_apply, cube_apply]
  rfl

/-- The reference's result at its one index. -/
theorem result_apply :
    val_main_v51 (F := Ideal) x0 x3 x4 x5 x6 ix0
      = loss (fun i : Fin 5 => rsc x0 x3 x4 x5 x6 (Fin.castLE (by decide : 5 ≤ 8192) i)) := by
  rw [val_main_v51_apply, val_main_v50_apply, sum_idx1]
  simp only [val_main_v49_apply, val_main_v48_apply, e_49, term_apply]
  rfl

end Cert.ReferenceIdeal.RefValue

end
-- ==== Proof.lean ====
/-
  The claims: a Pallas kernel for a pairwise ranking loss against its jnp reference, over the extended reals.

  Both programs score rows of `data` with a two-layer scorer (`tanh` between two affine maps), form for a pair of
  scores the expanded cube `x³ − 3x²y + 3xy² − y³`, pass it through `log (1 + exp (−(|s + ε| ^ p · sign s)))`, and
  return the sum over rows 0 … 4 against row 0, divided by 2 ^ 26 (Proof/Spec.lean: `score`, `cube`, `termOf`,
  `loss`). The reference builds the whole 8192 × 8192 table and slices five entries out of it; the kernel loads
  eight rows, computes their eight terms and masks three away. They also spell three scalar steps differently —
  the power as `exp (p · log ·)`, the negation as `0 − ·`, the sign as a bit copy — and each pair of spellings is one
  function at every extended real, infinite ones included (Proof/Scalar.lean and the library's reading of the sign
  idiom), so the precondition is not used: the two results are one term of the arguments.

  * the kernel's side: Proof/Body.lean and Proof/Stored.lean read the body's stored number as `loss` of its block's
    first five scores; Proof/KernelRun.lean reads the blocks off the arguments and carries the number through the
    write-back and the host's final reshape;
  * the reference's side: Proof/RefValue.lean reads the returned scalar, one operation at a time, as the same `loss`;
  * the three frames are the generated frame runs (the reference's, its generated run with the result dropped), and
    the idealization's one ledger entry — the sign-bit copy read as a comparison with zero — is its rule's statement.
-/
import proofs.«119599_j25735444037693_2_alg».proof.Defs
import proofs.«119599_j25735444037693_2_alg».proof.Proof.Gen.Kernel
import proofs.«119599_j25735444037693_2_alg».proof.Proof.Gen.Kernel.Skeleton
import proofs.«119599_j25735444037693_2_alg».proof.Proof.Gen.Kernel.Launch
import proofs.«119599_j25735444037693_2_alg».proof.Proof.Gen.Kernel.Points
import proofs.«119599_j25735444037693_2_alg».proof.Proof.Gen.Kernel.Frame
import proofs.«119599_j25735444037693_2_alg».proof.Proof.Gen.KernelIdeal
import proofs.«119599_j25735444037693_2_alg».proof.Proof.Gen.KernelIdeal.Skeleton
import proofs.«119599_j25735444037693_2_alg».proof.Proof.Gen.KernelIdeal.Launch
import proofs.«119599_j25735444037693_2_alg».proof.Proof.Gen.KernelIdeal.Points
import proofs.«119599_j25735444037693_2_alg».proof.Proof.Gen.KernelIdeal.Frame
import proofs.«119599_j25735444037693_2_alg».proof.Proof.Gen.ReferenceIdeal
import proofs.«119599_j25735444037693_2_alg».proof.Proof.Gen.ReferenceIdeal.Run
import proofs.«119599_j25735444037693_2_alg».proof.Proof.Gen.ReferenceIdeal.Read
import proofs.«119599_j25735444037693_2_alg».proof.Proof.Gen.Pre_finite_inputs
import proofs.«119599_j25735444037693_2_alg».proof.Proof.KernelRun
import proofs.«119599_j25735444037693_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: `1.0` carrying a number's sign bit is `-1` below zero and `1` otherwise. -/
theorem preserves : Cert.preserves_Kernel_KernelIdeal :=
  IdealRules.sign_bit.statement Cert.KernelIdeal.S8x1 .f32

/-- Both programs end with the returned scalar at `loss` of the first five rows' scores of the same arguments. -/
theorem algebraic : Cert.algebraic_KernelIdeal_ReferenceIdeal := by
  intro m ρ m' ρ' _ hagree
  refine ⟨fun c _ => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.2.2.1, (hagree c).2.2.2.2.1,
    (hagree c).2.2.2.2.2.1, (hagree c).2.2.2.2.2.2]
  funext i
  rw [ValueIdx.eq_ix0 i, Cert.ReferenceIdeal.RefValue.result_apply]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
